-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x64 : Shape := ⟨2, ![640000, 64]⟩
abbrev S20000x128 : Shape := ⟨2, ![20000, 128]⟩
abbrev S640000 : Shape := ⟨1, ![640000]⟩
abbrev S192x128 : Shape := ⟨2, ![192, 128]⟩
abbrev S_ : Shape := ⟨0, ![]⟩

class Facts : Prop where
  bcast_S_S640000x64 : S_.BroadcastsInDim S640000x64 (![] : Fin 0 → Fin S640000x64.rank)
  reducesTo_S640000x64_S_d0_1 : S640000x64.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S192x128 : S_.BroadcastsInDim S192x128 (![] : Fin 0 → Fin S192x128.rank)
  reducesTo_S192x128_S_d0_1 : S192x128.ReducesTo [0, 1] S_

variable [Facts]

def fn {F : FTy → Type} [FloatOps F] (main_arg0 : FVec F S640000x64 .f32) (main_arg1 : FVec F S20000x128 .f32) (main_arg2 : IVec S640000 32) (main_arg3 : FVec F S192x128 .f32) : IVec S_ 1 :=
  let main_v0 : FVec F S640000x64 .f32 := Host.absf main_arg0
  let main_cst : FVec F S_ .f32 := constant S_ .f32 0x7F800000#32
  let main_v1 : FVec F S640000x64 .f32 := broadcastInDim S640000x64 ![] bcast_S_S640000x64 main_cst
  let main_v2 : IVec S640000x64 1 := cmpf .olt main_v0 main_v1
  let main_c : IVec S_ 1 := constantI S_ 1 1#1
  let main_v3 : IVec S_ 1 := (fun x v => Host.reduce IntOp.andi x v reducesTo_S640000x64_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  main_v13
-- ==== Kernel.lean ====
abbrev S640000x64 : Shape := ⟨2, ![640000, 64]⟩
abbrev S20000x128 : Shape := ⟨2, ![20000, 128]⟩
abbrev S640000 : Shape := ⟨1, ![640000]⟩
abbrev S192x128 : Shape := ⟨2, ![192, 128]⟩
abbrev S64x128 : Shape := ⟨2, ![64, 128]⟩
abbrev S128x128 : Shape := ⟨2, ![128, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S8000x64 : Shape := ⟨2, ![8000, 64]⟩
abbrev S8000x128 : Shape := ⟨2, ![8000, 128]⟩

abbrev nBuf : Space → Nat
  | .hbm => 30
  | .vmem => 8
  | .smem => 0
  | _ => 0

abbrev bufTy : (tb : Table) → Fin (tcTables nBuf tb) → BufTy
  | .hbm, ⟨0, _⟩ => ⟨S640000x64, .f32⟩
  | .hbm, ⟨1, _⟩ => ⟨S20000x128, .f32⟩
  | .hbm, ⟨2, _⟩ => ⟨S640000, .i32⟩
  | .hbm, ⟨3, _⟩ => ⟨S192x128, .f32⟩
  | .hbm, ⟨4, _⟩ => ⟨S64x128, .f32⟩
  | .hbm, ⟨5, _⟩ => ⟨S128x128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S1, .i32⟩
  | .hbm, ⟨15, _⟩ => ⟨S_, .i32⟩
  | .hbm, ⟨16, _⟩ => ⟨S640000x1, .i32⟩
  | .hbm, ⟨17, _⟩ => ⟨S640000x1, .i1⟩
  | .hbm, ⟨18, _⟩ => ⟨S1x1, .i32⟩
  | .hbm, ⟨19, _⟩ => ⟨S640000x1, .i32⟩
  | .hbm, ⟨20, _⟩ => ⟨S640000x1, .i1⟩
  | .hbm, ⟨21, _⟩ => ⟨S640000x1, .i1⟩
  | .hbm, ⟨22, _⟩ => ⟨S_, .i1⟩
  | .hbm, ⟨23, _⟩ => ⟨S640000, .i1⟩
  | .hbm, ⟨24, _⟩ => ⟨S640000x128, .f32⟩
  | .hbm, ⟨25, _⟩ => ⟨S640000x128, .i1⟩
  | .hbm, ⟨26, _⟩ => ⟨S_, .f32⟩
  | .hbm, ⟨27, _⟩ => ⟨S640000x128, .f32⟩
  | .hbm, ⟨28, _⟩ => ⟨S640000x128, .f32⟩
  | .hbm, ⟨29, _⟩ => ⟨S640000x128, .f32⟩
  | .local _ .vmem, ⟨0, _⟩ => ⟨S8000x64, .f32⟩
  | .local _ .vmem, ⟨1, _⟩ => ⟨S8000x64, .f32⟩
  | .local _ .vmem, ⟨2, _⟩ => ⟨S8000x128, .f32⟩
  | .local _ .vmem, ⟨3, _⟩ => ⟨S8000x128, .f32⟩
  | .local _ .vmem, ⟨4, _⟩ => ⟨S64x128, .f32⟩
  | .local _ .vmem, ⟨5, _⟩ => ⟨S128x128, .f32⟩
  | .local _ .vmem, ⟨6, _⟩ => ⟨S8000x128, .f32⟩
  | .local _ .vmem, ⟨7, _⟩ => ⟨S8000x128, .f32⟩
  | _, _ => ⟨S640000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S192x128_S64x128_0_0 : S192x128.Slices ![0, 0] S64x128
  slices_S192x128_S128x128_64_0 : S192x128.Slices ![64, 0] S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S20000x128_S640000x1_S640000x128_1_0_n_n_0_1_1128_wf : GatherDims.WF S20000x128 S640000x1 S640000x128 [1] [0] [] [0] [] 1 ![1, 128]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S640000x64.size a
  hwx0_0 : ∀ i : grid0.Coords, EltTy.bits .f32 = 32 ∨ (Rect.block (s := S640000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S640000x128.size a
  hwx0_4 : ∀ i : grid0.Coords, EltTy.bits .f32 = 32 ∨ (Rect.block (s := S640000x128) S8000x128.size (cc0_transform_4 i) (hinb0_4 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S640000x64 : Shape := ⟨2, ![640000, 64]⟩
abbrev S20000x128 : Shape := ⟨2, ![20000, 128]⟩
abbrev S640000 : Shape := ⟨1, ![640000]⟩
abbrev S192x128 : Shape := ⟨2, ![192, 128]⟩
abbrev S64x128 : Shape := ⟨2, ![64, 128]⟩
abbrev S128x128 : Shape := ⟨2, ![128, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩

abbrev nBuf : Space → Nat
  | .hbm => 32
  | .vmem => 0
  | .smem => 0
  | _ => 0

abbrev bufTy : (tb : Table) → Fin (tcTables nBuf tb) → BufTy
  | .hbm, ⟨0, _⟩ => ⟨S640000x64, .f32⟩
  | .hbm, ⟨1, _⟩ => ⟨S20000x128, .f32⟩
  | .hbm, ⟨2, _⟩ => ⟨S640000, .i32⟩
  | .hbm, ⟨3, _⟩ => ⟨S192x128, .f32⟩
  | .hbm, ⟨4, _⟩ => ⟨S64x128, .f32⟩
  | .hbm, ⟨5, _⟩ => ⟨S128x128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S1, .i32⟩
  | .hbm, ⟨15, _⟩ => ⟨S_, .i32⟩
  | .hbm, ⟨16, _⟩ => ⟨S640000x1, .i32⟩
  | .hbm, ⟨17, _⟩ => ⟨S640000x1, .i1⟩
  | .hbm, ⟨18, _⟩ => ⟨S1x1, .i32⟩
  | .hbm, ⟨19, _⟩ => ⟨S640000x1, .i32⟩
  | .hbm, ⟨20, _⟩ => ⟨S640000x1, .i1⟩
  | .hbm, ⟨21, _⟩ => ⟨S640000x1, .i1⟩
  | .hbm, ⟨22, _⟩ => ⟨S_, .i1⟩
  | .hbm, ⟨23, _⟩ => ⟨S640000, .i1⟩
  | .hbm, ⟨24, _⟩ => ⟨S640000x128, .f32⟩
  | .hbm, ⟨25, _⟩ => ⟨S640000x128, .i1⟩
  | .hbm, ⟨26, _⟩ => ⟨S_, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S640000x128, .f32⟩
  | _, _ => ⟨S640000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  slices_S192x128_S64x128_0_0 : S192x128.Slices ![0, 0] S64x128
  slices_S192x128_S128x128_64_0 : S192x128.Slices ![64, 0] S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  gather_S20000x128_S640000x1_S640000x128_1_0_n_n_0_1_1128_wf : GatherDims.WF S20000x128 S640000x1 S640000x128 [1] [0] [] [0] [] 1 ![1, 128]
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KernelBlock.lean ====
/-
  One grid point's arithmetic, read at an entry.

  At a grid point the kernel body holds four blocks: 8000 rows of the edge features (`x0`, [8000, 64]), the same 8000
  rows of the source-node features (`x1`, [8000, 128]) and the two weight halves whole (`x2` [64, 128], `x3`
  [128, 128]). It narrows all four to bf16 (over the extended reals a change of float format changes nothing, and a
  reshape to the same shape is the identity), multiplies `x0` by `x2` and `x1` by `x3`, each into an accumulator of
  zeros, and adds the two products. So entry (p, q) of what it stores is

      (∑ k < 64, x0 (p, k) · x2 (k, q)) + (∑ k < 128, x1 (p, k) · x3 (k, q)):

  a product into a zero accumulator is the bare sum over the contraction, and that sum runs along row `p` of the left
  operand and column `q` of the right.
-/
import proofs.«119882_j19542101197172_1_alg».proof.Proof.Gen.KernelIdeal.Skeleton
import proofs.«119882_j19542101197172_1_alg».proof.Proof.LibPlainDot
import Idealize.ShloMosaic.Lib.Pipeline.Value

open scoped BigOperators

noncomputable section

namespace Cert.KernelIdeal.Block

open Cert.KernelIdeal Cert.KernelIdeal.Gen Idealize.ShloMosaic Idealize.ShloMosaic.ValueIdx

/-- The edge-feature product of one block, at entry (p, q): row `p` of the block against column `q` of the first
    weight half. -/
theorem edge_product_at (x0 : FVec Ideal S8000x64 .f32) (x2 : FVec Ideal S64x128 .f32) (p : Fin 8000) (q : Fin 128) :
    matmul (F := Ideal) dot_S8000x64_S64x128_S8000x128_1_0_0_1_n_n none (truncf .bf16 x0 bitsLt_bf16_f32)
        (truncf .bf16 (shapeCast S64x128 x2 shapeCasts_S64x128_S64x128) bitsLt_bf16_f32)
        (constant S8000x128 .f32 0x00000000#32) (ix2 p q)
      = ∑ k : Fin 64, x0 (ix2 p k) * x2 (ix2 k q) := by
  rw [shapeCast_self]
  refine (Ideal.matmul_constant_zero_apply _ none _ _ (ix2 p q)).trans ?_
  exact Cert.PlainDot.sum_eq dot_S8000x64_S64x128_S8000x128_1_0_0_1_n_n rfl rfl rfl rfl rfl rfl rfl rfl x0 x2 p q

/-- The source-node product of one block, at entry (p, q): row `p` of the block against column `q` of the second
    weight half. -/
theorem node_product_at (x1 : FVec Ideal S8000x128 .f32) (x3 : FVec Ideal S128x128 .f32) (p : Fin 8000) (q : Fin 128) :
    matmul (F := Ideal) dot_S8000x128_S128x128_S8000x128_1_0_0_1_n_n none
        (truncf .bf16 (shapeCast S8000x128 x1 shapeCasts_S8000x128_S8000x128) bitsLt_bf16_f32)
        (truncf .bf16 (shapeCast S128x128 x3 shapeCasts_S128x128_S128x128) bitsLt_bf16_f32)
        (constant S8000x128 .f32 0x00000000#32) (ix2 p q)
      = ∑ k : Fin 128, x1 (ix2 p k) * x3 (ix2 k q) := by
  rw [shapeCast_self, shapeCast_self]
  refine (Ideal.matmul_constant_zero_apply _ none _ _ (ix2 p q)).trans ?_
  exact Cert.PlainDot.sum_eq dot_S8000x128_S128x128_S8000x128_1_0_0_1_n_n rfl rfl rfl rfl rfl rfl rfl rfl x1 x3 p q

/-- What the body stores, at entry (p, q) of the block: the two products there, added. -/
theorem stored_at (x0 : Vec Ideal S8000x64 .f32) (x1 : Vec Ideal S8000x128 .f32) (x2 : Vec Ideal S64x128 .f32)
    (x3 : Vec Ideal S128x128 .f32) (p : Fin 8000) (q : Fin 128) :
    k0_pay1 (F := Ideal) x0 x1 x2 x3 (ix2 p q)
      = (∑ k : Fin 64, x0 (ix2 p k) * x2 (ix2 k q)) + ∑ k : Fin 128, x1 (ix2 p k) * x3 (ix2 k q) := by
  unfold k0_pay1
  exact congrArg₂ (· + ·) (edge_product_at x0 x2 p q) (node_product_at x1 x3 p q)

end Cert.KernelIdeal.Block

end
-- ==== Proof.HostTake.lean ====
/-
  What both programs do on the host before any product is taken: two slices of the weight, and a row lookup.

  The weight `W` is [192, 128]; its rows 0-63 multiply the edge features and its rows 64-191 the source-node features
  (`weightTop`, `weightBottom`).

  The row lookup: `take(n, src, axis = 0)` of a
  [20000, 128] table `n` at 640000 integer positions `src`, as it is lowered.

  * A negative position counts from the end: where `src < 0` the position used is `src + 20000` (`wrapIndex`).
  * The lookup itself reads, for each of the 640000 positions, the whole 128-wide row of `n` at that position, the
    position clamped into the table (`rowGather`: one index column, the table's axis 0 collapsed, its axis 1 kept).
  * A position that is still outside `[0, 19999]` after wrapping gets no row of the table: its 128 entries are filled
    with one fixed pattern instead (`inRange` says which positions keep their row; the fill is a broadcast constant).

  Both programs apply exactly this function to the same two arguments, so nothing below ever needs to open it: it is
  carried as one name. It is stated for any float values, since it only moves entries and never computes with them.
-/
import Idealize.ShloMosaic.PureOps

noncomputable section

namespace Cert.EdgeInit

open Idealize.ShloMosaic

abbrev NodeRows : Shape := ⟨2, ![20000, 128]⟩
abbrev EdgeRows : Shape := ⟨2, ![640000, 128]⟩
abbrev Edges : Shape := ⟨1, ![640000]⟩
abbrev EdgesCol : Shape := ⟨2, ![640000, 1]⟩
abbrev EdgeFeat : Shape := ⟨2, ![640000, 64]⟩
abbrev Weight : Shape := ⟨2, ![192, 128]⟩
abbrev WeightTop : Shape := ⟨2, ![64, 128]⟩
abbrev WeightBottom : Shape := ⟨2, ![128, 128]⟩
abbrev Point : Shape := ⟨0, ![]⟩
abbrev One : Shape := ⟨1, ![1]⟩
abbrev OneCol : Shape := ⟨2, ![1, 1]⟩

/-- The positions with the negative ones counted from the end of the table. -/
def wrapIndex (src : IVec Edges 32) : IVec Edges 32 :=
  select (cmpi .slt src (broadcastInDim Edges ![] (by decide) (constantI Point 32 0#32)))
    (addi src (broadcastInDim Edges ![] (by decide) (constantI Point 32 20000#32))) src

/-- Which positions, written as a column, lie inside the table: `0 ≤ position ≤ 19999`, the conjunction taken along
    the column's one entry. -/
def inRange (col : IVec EdgesCol 32) : IVec Edges 1 :=
  Host.reduce IntOp.andi
    (andi (cmpi .sge col (broadcastInDim EdgesCol ![] (by decide) (constantI Point 32 0#32)))
      (cmpi .sle col (broadcastInDim EdgesCol ![0, 1] (by decide)
        (broadcastInDim OneCol ![1] (by decide) (constantI One 32 19999#32)))))
    (constantI Point 1 1#1) (by decide : EdgesCol.ReducesTo [1] Edges) (by decide)

/-- The lookup's dimension numbers: positions in a column (the index vector is axis 1 of the positions array), each
    selecting along the table's axis 0, which is collapsed; the table's axis 1 is kept whole, as the result's axis 1. -/
def rowGather : GatherDims NodeRows EdgesCol EdgeRows where
  offsetDims := [1]
  collapsedSliceDims := [0]
  operandBatchingDims := []
  startIndicesBatchingDims := []
  startIndexMap := [0]
  indexVectorDim := 1
  sliceSizes := ![1, 128]
  wf := by decide

/-- The rows of `n` at the positions `src`: row `e` of the result is row `wrapIndex src e` of `n` where that position
    is inside the table, and the fill pattern elsewhere. -/
def takeRows {F : FTy → Type} [FloatOps F] (n : FVec F NodeRows .f32) (src : IVec Edges 32) : FVec F EdgeRows .f32 :=
  select (broadcastInDim EdgeRows ![0] (by decide) (inRange (broadcastInDim EdgesCol ![0] (by decide) (wrapIndex src))))
    (Host.gather rowGather n (broadcastInDim EdgesCol ![0] (by decide) (wrapIndex src)))
    (broadcastInDim EdgeRows ![] (by decide) (constant Point .f32 0x7FC00000#32))

/-! ## The lookup as the programs spell it

A program applies the lookup as a chain of elementary operations, each with its own evidence of the shape conditions
it needs (which axis a broadcast fills, which axis a reduction removes). The chain is `takeRows` whatever that evidence
is: a condition's proof never enters the value. Stated in three steps — the wrapped positions, the range test, the
whole chain — so that each comparison is between two short terms. -/

/-- The wrapped positions, spelt: compare with zero, add the table's height, choose. -/
theorem wrapIndex_spelt (h : Point.BroadcastsInDim Edges ![]) (src : IVec Edges 32) :
    select (cmpi .slt src (broadcastInDim Edges ![] h (constantI Point 32 0#32)))
      (addi src (broadcastInDim Edges ![] h (constantI Point 32 20000#32))) src = wrapIndex src := rfl

/-- The range test, spelt: both comparisons against broadcast bounds, their conjunction reduced along the column. -/
theorem inRange_spelt (h0 : Point.BroadcastsInDim EdgesCol ![]) (h1 : OneCol.BroadcastsInDim EdgesCol ![0, 1])
    (h2 : One.BroadcastsInDim OneCol ![1]) (hr : EdgesCol.ReducesTo [1] Edges) (hp : 0 < Point.numel)
    (col : IVec EdgesCol 32) :
    Host.reduce IntOp.andi
      (andi (cmpi .sge col (broadcastInDim EdgesCol ![] h0 (constantI Point 32 0#32)))
        (cmpi .sle col (broadcastInDim EdgesCol ![0, 1] h1 (broadcastInDim OneCol ![1] h2 (constantI One 32 19999#32)))))
      (constantI Point 1 1#1) hr hp = inRange col := rfl

/-- The whole chain, spelt, is `takeRows`: for any record with the lookup's dimension numbers and any evidence of the
    shape conditions. -/
theorem takeRows_spelt {F : FTy → Type} [FloatOps F] (g : GatherDims NodeRows EdgesCol EdgeRows) (hg : g = rowGather)
    (hs : Point.BroadcastsInDim Edges ![]) (hcol : Edges.BroadcastsInDim EdgesCol ![0])
    (h0 : Point.BroadcastsInDim EdgesCol ![]) (h1 : OneCol.BroadcastsInDim EdgesCol ![0, 1])
    (h2 : One.BroadcastsInDim OneCol ![1]) (hr : EdgesCol.ReducesTo [1] Edges) (hp : 0 < Point.numel)
    (hrow : Edges.BroadcastsInDim EdgeRows ![0]) (hfill : Point.BroadcastsInDim EdgeRows ![])
    (n : FVec F NodeRows .f32) (src : IVec Edges 32) :
    select
      (broadcastInDim EdgeRows ![0] hrow
        (Host.reduce IntOp.andi
          (andi
            (cmpi .sge
              (broadcastInDim EdgesCol ![0] hcol
                (select (cmpi .slt src (broadcastInDim Edges ![] hs (constantI Point 32 0#32)))
                  (addi src (broadcastInDim Edges ![] hs (constantI Point 32 20000#32))) src))
              (broadcastInDim EdgesCol ![] h0 (constantI Point 32 0#32)))
            (cmpi .sle
              (broadcastInDim EdgesCol ![0] hcol
                (select (cmpi .slt src (broadcastInDim Edges ![] hs (constantI Point 32 0#32)))
                  (addi src (broadcastInDim Edges ![] hs (constantI Point 32 20000#32))) src))
              (broadcastInDim EdgesCol ![0, 1] h1 (broadcastInDim OneCol ![1] h2 (constantI One 32 19999#32)))))
          (constantI Point 1 1#1) hr hp))
      (Host.gather g n
        (broadcastInDim EdgesCol ![0] hcol
          (select (cmpi .slt src (broadcastInDim Edges ![] hs (constantI Point 32 0#32)))
            (addi src (broadcastInDim Edges ![] hs (constantI Point 32 20000#32))) src)))
      (broadcastInDim EdgeRows ![] hfill (constant (F := F) Point .f32 0x7FC00000#32))
    = takeRows n src := by
  subst hg
  rw [wrapIndex_spelt hs, inRange_spelt h0 h1 h2 hr hp]
  rfl

/-- Rows 0-63 of the weight: the half that multiplies the edge features. -/
def weightTop {F : FTy → Type} (W : FVec F Weight .f32) : FVec F WeightTop .f32 :=
  extractStridedSlice WeightTop ![0, 0] W (by decide)

/-- Rows 64-191 of the weight: the half that multiplies the source-node features. -/
def weightBottom {F : FTy → Type} (W : FVec F Weight .f32) : FVec F WeightBottom .f32 :=
  extractStridedSlice WeightBottom ![64, 0] W (by decide)

end Cert.EdgeInit

end
-- ==== Proof.EdgeInit.lean ====
/-
  What both programs compute, as one function of four arrays, index by index over the extended reals.

  From edge features `E` [640000, 64], per-edge source-node features `S` [640000, 128] and the two halves of the weight,
  `We` [64, 128] and `Wn` [128, 128], entry (e, h) of the result is

      (∑ k < 64, E (e, k) · We (k, h)) + (∑ k < 128, S (e, k) · Wn (k, h)):

  row `e` of `E` against column `h` of `We`, plus row `e` of `S` against column `h` of `Wn`, the two sums added in
  that order. Entry (e, h) depends on row `e` of `E` and `S` only, which is why a program may compute the result
  8000 rows at a time. No law of the extended reals is needed to compare the two programs against this function: each
  takes the same two sums, term by term in the same order, and adds them the same way round.
-/
import proofs.«119882_j19542101197172_1_alg».proof.Proof.HostTake
import Idealize.ShloMosaic.Lib.ValueIdx

open scoped BigOperators

noncomputable section

namespace Cert.EdgeInit

open Idealize.ShloMosaic Idealize.ShloMosaic.ValueIdx

/-- Entry (e, h): the two row-by-column sums, added. -/
def entry (E : (⟨2, ![640000, 64]⟩ : Shape).Idx → EReal) (S : (⟨2, ![640000, 128]⟩ : Shape).Idx → EReal)
    (We : (⟨2, ![64, 128]⟩ : Shape).Idx → EReal) (Wn : (⟨2, ![128, 128]⟩ : Shape).Idx → EReal)
    (e : Fin 640000) (h : Fin 128) : EReal :=
  (∑ k : Fin 64, E (ix2 e k) * We (ix2 k h)) + ∑ k : Fin 128, S (ix2 e k) * Wn (ix2 k h)

/-- The whole result array. -/
def edgeInit (E : (⟨2, ![640000, 64]⟩ : Shape).Idx → EReal) (S : (⟨2, ![640000, 128]⟩ : Shape).Idx → EReal)
    (We : (⟨2, ![64, 128]⟩ : Shape).Idx → EReal) (Wn : (⟨2, ![128, 128]⟩ : Shape).Idx → EReal) :
    (⟨2, ![640000, 128]⟩ : Shape).Idx → EReal :=
  fun i => entry E S We Wn ⟨(i 0).val, idx2_lt0 i⟩ ⟨(i 1).val, idx2_lt1 i⟩

/-- At an index given by its coordinates the array is the entry. -/
theorem edgeInit_ix2 (E : (⟨2, ![640000, 64]⟩ : Shape).Idx → EReal) (S : (⟨2, ![640000, 128]⟩ : Shape).Idx → EReal)
    (We : (⟨2, ![64, 128]⟩ : Shape).Idx → EReal) (Wn : (⟨2, ![128, 128]⟩ : Shape).Idx → EReal)
    (e : Fin 640000) (h : Fin 128) : edgeInit E S We Wn (ix2 e h) = entry E S We Wn e h := rfl

/-- Equal arrays give equal results. -/
theorem edgeInit_congr {E E' : (⟨2, ![640000, 64]⟩ : Shape).Idx → EReal} {S S' : (⟨2, ![640000, 128]⟩ : Shape).Idx → EReal}
    {We We' : (⟨2, ![64, 128]⟩ : Shape).Idx → EReal} {Wn Wn' : (⟨2, ![128, 128]⟩ : Shape).Idx → EReal}
    (hE : E = E') (hS : S = S') (hWe : We = We') (hWn : Wn = Wn') :
    edgeInit E S We Wn = edgeInit E' S' We' Wn' := by
  subst hE hS hWe hWn; rfl

/-- The result as a function of the four ARGUMENTS: `edgeInit` of the edge features, the node table's rows at the
    positions, and the two halves of the weight. -/
def fromArguments (E : FVec Ideal EdgeFeat .f32) (n : FVec Ideal NodeRows .f32) (src : IVec Edges 32)
    (W : FVec Ideal Weight .f32) : FVec Ideal EdgeRows .f32 :=
  edgeInit E (takeRows n src) (weightTop W) (weightBottom W)

end Cert.EdgeInit

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.KernelHost.lean ====
/-
  The three arrays the kernel's program writes on the host before the launch, read as terms of the arguments.

  Before its one launch the program runs 25 host operations: the two slices of the weight, then the 23 operations of
  the row lookup. The launch finds every buffer at the fold of those operations over the memory the program started
  from. Read at the buffer of the first slice that fold is rows 0-63 of the weight argument, at the second rows
  64-191, and at the lookup's result buffer the rows of the node table at the positions: each operation's result is
  its function of the buffers it reads, and reading them in turn leaves the operations' terms of the arguments, which
  are `weightTop`, `weightBottom` and `takeRows` spelt out. (The lookup's operations name their buffers through
  references that carry the value's type; at these literal buffers moving contents to the buffer's own type and back
  changes nothing.)
-/
import proofs.«119882_j19542101197172_1_alg».proof.Proof.Gen.KernelIdeal.Frame
import proofs.«119882_j19542101197172_1_alg».proof.Proof.HostTake
import proofs.«119882_j19542101197172_1_alg».proof.Proof.LibTypedRef
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo
open Cert.EdgeInit (takeRows weightTop weightBottom)

variable (m : (ℓ : Loc nD τ sig) → Buf (Elt Ideal) ℓ)

/-- The first weight half as the launch finds it: rows 0-63 of the weight argument. -/
theorem found_edge_weight (c : Dev nD) : (V m c main_v0 : S64x128.Idx → EReal)
    = weightTop (F := Ideal) (m ((c : Thread nD τ).loc main_arg3)) := by
  dsimp only [Gen.V]
  simp only [Gen.hostOps0, Gen.hostOps0_1, List.flatten_cons, List.flatten_nil, List.append_nil, List.cons_append,
    List.nil_append]
  after_results
  rfl

/-- The second weight half as the launch finds it: rows 64-191 of the weight argument. -/
theorem found_node_weight (c : Dev nD) : (V m c main_v1 : S128x128.Idx → EReal)
    = weightBottom (F := Ideal) (m ((c : Thread nD τ).loc main_arg3)) := by
  dsimp only [Gen.V]
  simp only [Gen.hostOps0, Gen.hostOps0_1, List.flatten_cons, List.flatten_nil, List.append_nil, List.cons_append,
    List.nil_append]
  after_results
  rfl

/-- At the node table's buffer, the positions' buffer and the lookup's result buffer, contents at the value's type are
    contents at the buffer's type. -/
theorem node_table_cast (u : (main_arg1 : Ref sig .tc).ty.Contents (Elt Ideal)) :
    (TRef.of main_arg1 : TRef sig ⟨S20000x128, .f32⟩).ofBuf u = u := rfl
theorem positions_cast (u : (main_arg2 : Ref sig .tc).ty.Contents (Elt Ideal)) :
    (TRef.of main_arg2 : TRef sig ⟨S640000, .i32⟩).ofBuf u = u := rfl
theorem node_rows_cast (u : FVec Ideal S640000x128 .f32) :
    (TRef.of main_v2 : TRef sig ⟨S640000x128, .f32⟩).toBuf (Val := Elt Ideal) u = u := rfl

set_option maxHeartbeats 400000 in
/-- The source-node features as the launch finds them: the row lookup of the node table at the positions. -/
theorem found_node_rows (c : Dev nD) : (V m c main_v2 : S640000x128.Idx → EReal)
    = takeRows (F := Ideal) (m ((c : Thread nD τ).loc main_arg1)) (m ((c : Thread nD τ).loc main_arg2)) := by
  dsimp only [Gen.V]
  simp only [Gen.hostOps0, Gen.hostOps0_1, List.flatten_cons, List.flatten_nil, List.append_nil, List.cons_append,
    List.nil_append]
  after_results_simp
  simp only [Cert.TypedRef.ofBuf_toBuf, node_table_cast, positions_cast, node_rows_cast]
  exact Cert.EdgeInit.takeRows_spelt (F := Ideal) gather_S20000x128_S640000x1_S640000x128_1_0_n_n_0_1_1128 rfl
    bcast_S_S640000 bcast_S640000_S640000x1_0 bcast_S_S640000x1 bcast_S1x1_S640000x1_0_1 bcast_S1_S1x1_1
    reducesTo_S640000x1_S640000_d1 h_S_ bcast_S640000_S640000x128_0 bcast_S_S640000x128
    (m ((c : Thread nD τ).loc main_arg1)) (m ((c : Thread nD τ).loc main_arg2))

end Cert.KernelIdeal.Whole

end
-- ==== Proof.KernelArray.lean ====
/-
  From one grid point's block to the whole result array of the kernel's program.

  The grid has 80 points. Point `t` is handed rows `8000·t … 8000·t + 7999` of the edge features and of the
  source-node features, and both weight halves whole, and writes back rows `8000·t … 8000·t + 7999` of the result.
  Entry (e, h) of the result depends on row `e` of the two feature arrays only, so what point `t` writes back is
  exactly its 8000 rows of the one whole-array function `edgeInit` of the four arrays as the launch finds them; the
  80 row blocks are disjoint and fill the 640000 rows (row `e` lies in block `e / 8000`), so after the last point
  the result array IS that function.

  The four arrays as the launch finds them: the edge features are an argument, untouched by the host operations
  before the launch; the other three those operations wrote — the two slices of the weight, and the row lookup of
  the node table at the positions — so the result array is `fromArguments` of the four arguments.
-/
import proofs.«119882_j19542101197172_1_alg».proof.Proof.Gen.KernelIdeal.Value
import proofs.«119882_j19542101197172_1_alg».proof.Proof.KernelBlock
import proofs.«119882_j19542101197172_1_alg».proof.Proof.EdgeInit
import proofs.«119882_j19542101197172_1_alg».proof.Proof.KernelHost
import Idealize.ShloMosaic.Lib.Pipeline.Value

open scoped BigOperators

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.EdgeInit (edgeInit entry fromArguments)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`, decided over the 80 points: the two feature windows and the
    result window are at row block `t`, column block 0; the two weight windows at block (0, 0). -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input window's block as rows of its array

Stated for an arbitrary array `A` in the window's place: where a block sits is a fact about the window, not about
what the array holds. -/

/-- Window 0 (edge features): the block at point `t`, entry `y`, is the array's entry `i` whenever `i` is `y` moved
    down by `8000·t` rows. -/
theorem edge_block_read (A : S640000x64.Idx → EReal) (t : Fin cfg0.N) (y : S8000x64.Idx) (i : S640000x64.Idx)
    (h0 : (i 0).val = t.val * 8000 + (y 0).val) (h1 : (i 1).val = (y 1).val) :
    ((cfg0.win 0).blk t).view.read (Elt Ideal) A y = A i := by
  obtain ⟨e00, e01, -⟩ := block_positions t
  rw [View.read_apply]
  refine congrArg A ?_
  funext a
  apply Fin.ext
  match a with
  | ⟨0, _⟩ => show win0_0.index t (0 : Fin 2) * 8000 + 1 * (y 0).val = (i 0).val; rw [e00, h0]; omega
  | ⟨1, _⟩ => show win0_0.index t (1 : Fin 2) * 64 + 1 * (y 1).val = (i 1).val; rw [e01, h1]; omega

/-- Window 1 (source-node features) likewise. -/
theorem node_block_read (A : S640000x128.Idx → EReal) (t : Fin cfg0.N) (y : S8000x128.Idx) (i : S640000x128.Idx)
    (h0 : (i 0).val = t.val * 8000 + (y 0).val) (h1 : (i 1).val = (y 1).val) :
    ((cfg0.win 1).blk t).view.read (Elt Ideal) A y = A i := by
  obtain ⟨-, -, e10, e11, -⟩ := block_positions t
  rw [View.read_apply]
  refine congrArg A ?_
  funext a
  apply Fin.ext
  match a with
  | ⟨0, _⟩ => show win0_1.index t (0 : Fin 2) * 8000 + 1 * (y 0).val = (i 0).val; rw [e10, h0]; omega
  | ⟨1, _⟩ => show win0_1.index t (1 : Fin 2) * 128 + 1 * (y 1).val = (i 1).val; rw [e11, h1]; omega

/-- Window 2 (first weight half): the block at any point is the whole array. -/
theorem edge_weight_read (A : S64x128.Idx → EReal) (t : Fin cfg0.N) (y : S64x128.Idx) :
    ((cfg0.win 2).blk t).view.read (Elt Ideal) A y = A y := by
  obtain ⟨-, -, -, -, e20, e21, -⟩ := block_positions t
  rw [View.read_apply]
  refine congrArg A ?_
  funext a
  apply Fin.ext
  match a with
  | ⟨0, _⟩ => show win0_2.index t (0 : Fin 2) * 64 + 1 * (y 0).val = (y 0).val; rw [e20]; omega
  | ⟨1, _⟩ => show win0_2.index t (1 : Fin 2) * 128 + 1 * (y 1).val = (y 1).val; rw [e21]; omega

/-- Window 3 (second weight half): the block at any point is the whole array. -/
theorem node_weight_read (A : S128x128.Idx → EReal) (t : Fin cfg0.N) (y : S128x128.Idx) :
    ((cfg0.win 3).blk t).view.read (Elt Ideal) A y = A y := by
  obtain ⟨-, -, -, -, -, -, e30, e31, -⟩ := block_positions t
  rw [View.read_apply]
  refine congrArg A ?_
  funext a
  apply Fin.ext
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-! ## What a point stores is its rows of `edgeInit` -/

/-- Over any four blocks that are rows `8000·b …` of `E` and `S` and the two weight halves whole: the body's stored
    value at entry `j` of the block is `edgeInit E S We Wn` at the entry `i` that is `j` moved down by `8000·b` rows. -/
theorem stored_is_rows (E : S640000x64.Idx → EReal) (S : S640000x128.Idx → EReal) (We : S64x128.Idx → EReal)
    (Wn : S128x128.Idx → EReal) (x0 : Vec Ideal S8000x64 .f32) (x1 : Vec Ideal S8000x128 .f32)
    (x2 : Vec Ideal S64x128 .f32) (x3 : Vec Ideal S128x128 .f32) (b : Nat)
    (r0 : ∀ (y : S8000x64.Idx) (i : S640000x64.Idx), (i 0).val = b * 8000 + (y 0).val → (i 1).val = (y 1).val → x0 y = E i)
    (r1 : ∀ (y : S8000x128.Idx) (i : S640000x128.Idx), (i 0).val = b * 8000 + (y 0).val → (i 1).val = (y 1).val → x1 y = S i)
    (r2 : ∀ y, x2 y = We y) (r3 : ∀ y, x3 y = Wn y)
    (j : S8000x128.Idx) (i : S640000x128.Idx) (hi0 : (i 0).val = b * 8000 + (j 0).val) (hi1 : (i 1).val = (j 1).val) :
    k0_pay1 (F := Ideal) x0 x1 x2 x3 j = edgeInit E S We Wn i := by
  obtain ⟨p, q, rfl⟩ : ∃ (p : Fin 8000) (q : Fin 128), j = ix2 p q := ⟨j 0, j 1, eq_ix2 j⟩
  refine (Cert.KernelIdeal.Block.stored_at x0 x1 x2 x3 p q).trans ?_
  show _ = entry E S We Wn ⟨(i 0).val, idx2_lt0 i⟩ ⟨(i 1).val, idx2_lt1 i⟩
  unfold entry
  refine congrArg₂ (· + ·) (Finset.sum_congr rfl fun k _ => ?_) (Finset.sum_congr rfl fun k _ => ?_)
  · rw [r0 (ix2 p k) (ix2 ⟨(i 0).val, idx2_lt0 i⟩ k) hi0 rfl, r2]
    exact congrArg (fun z => E _ * We (ix2 k z)) (Fin.ext hi1.symm)
  · rw [r1 (ix2 p k) (ix2 ⟨(i 0).val, idx2_lt0 i⟩ k) hi0 rfl, r3]
    exact congrArg (fun z => S _ * Wn (ix2 k z)) (Fin.ext hi1.symm)

/-- For ANY four arrays in the input windows' places: what the body leaves in the result's staging buffer at point
    `t`, cut to the result window's block, is rows `8000·t …` of `edgeInit` of the four arrays. -/
theorem block_of_edgeInit (A0 : S640000x64.Idx → EReal) (A1 : S640000x128.Idx → EReal) (A2 : S64x128.Idx → EReal)
    (A3 : S128x128.Idx → EReal) (t : Fin cfg0.N) :
    (cfg0.win 4).cut (grid0.coords t)
        (out0_4 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (edgeInit A0 A1 A2 A3) := by
  unfold out0_4
  rw [View.canon_unit_zero zero_offsets]
  simp only [View.ld_unit_zero (S := S8000x64) zero_offsets, View.ld_unit_zero (S := S8000x128) zero_offsets,
    View.ld_unit_zero (S := S64x128) zero_offsets, View.ld_unit_zero (S := S128x128) zero_offsets]
  obtain ⟨-, -, -, -, -, -, -, -, e40, e41⟩ := block_positions t
  funext j
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3) j
    = edgeInit A0 A1 A2 A3 (((cfg0.win 4).blk t).view.emb j)
  refine stored_is_rows A0 A1 A2 A3
    (((cfg0.win 0).blk t).view.read (Elt Ideal) A0) (((cfg0.win 1).blk t).view.read (Elt Ideal) A1)
    (((cfg0.win 2).blk t).view.read (Elt Ideal) A2) (((cfg0.win 3).blk t).view.read (Elt Ideal) A3) t.val
    (fun y i h0 h1 => edge_block_read A0 t y i h0 h1) (fun y i h0 h1 => node_block_read A1 t y i h0 h1)
    (fun y => edge_weight_read A2 t y) (fun y => node_weight_read A3 t y) j (((cfg0.win 4).blk t).view.emb j) ?_ ?_
  · show win0_4.index t (0 : Fin 2) * 8000 + 1 * (j 0).val = t.val * 8000 + (j 0).val
    rw [e40]; omega
  · show win0_4.index t (1 : Fin 2) * 128 + 1 * (j 1).val = (j 1).val
    rw [e41]; omega

/-- WHAT POINT `t` WRITES BACK is rows `8000·t …` of `edgeInit` of the four arrays as the launch finds them: each input
    block is its window's block of the array the launch found. -/
theorem flushed_eq (c : Dev nD) (t : Fin cfg0.N) :
    (dats m 0 c).flushed 4 t = ((cfg0.win 4).blk t).view.read (Elt Ideal)
      (edgeInit (V m c main_arg0) (V m c main_v2) (V m c main_v0) (V m c main_v1)) := by
  rw [flushed4]
  unfold iblk
  exact block_of_edgeInit (V m c main_arg0) (V m c main_v2) (V m c main_v0) (V m c main_v1) t

/-! ## The 80 row blocks fill the array -/

/-- An index of the result array is in point `t`'s block iff each coordinate is in the block's range on its axis. -/
theorem mem_block (t : Fin cfg0.N) (i : S640000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v3).slice (win0_4.rect t)).set ↔ _
  rw [View.set_slice_whole, Rect.mem_set_unit]
  exact Iff.rfl

/-- Row `e` is in the block of point `e / 8000`, which writes back. -/
theorem covered (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hN : cfg0.N = 80 := N_0
  obtain ⟨t, ht⟩ : ∃ t : Fin cfg0.N, t.val = (i 0).val / 8000 := ⟨⟨(i 0).val / 8000, by rw [hN]; omega⟩, rfl⟩
  obtain ⟨-, -, -, -, -, -, -, -, e40, e41⟩ := block_positions t
  refine ⟨t, flush0_4 t, ?_⟩
  rw [mem_block]
  intro a
  match a with
  | ⟨0, _⟩ =>
    show win0_4.index t (0 : Fin 2) * 8000 ≤ (i 0).val ∧ (i 0).val < win0_4.index t (0 : Fin 2) * 8000 + 8000
    rw [e40, ht]; omega
  | ⟨1, _⟩ =>
    show win0_4.index t (1 : Fin 2) * 128 ≤ (i 1).val ∧ (i 1).val < win0_4.index t (1 : Fin 2) * 128 + 128
    rw [e41]; omega

/-- THE RESULT ARRAY after the last point: `edgeInit` of the four arrays as the launch finds them. -/
theorem final (c : Dev nD) : (dats m 0 c).arrAt 4 cfg0.N
    = edgeInit (V m c main_arg0) (V m c main_v2) (V m c main_v0) (V m c main_v1) :=
  (dats m 0 c).arrAt_eq_of_cover 4 (edgeInit (V m c main_arg0) (V m c main_v2) (V m c main_v0) (V m c main_v1))
    (fun t _ => flushed_eq m c t) covered

/-! ## The run, read -/

/-- The result array as a function of the four arguments. -/
theorem final_of_arguments (c : Dev nD) : (dats m 0 c).arrAt 4 cfg0.N
    = fromArguments (m ((c : Thread nD τ).loc main_arg0)) (m ((c : Thread nD τ).loc main_arg1))
        (m ((c : Thread nD τ).loc main_arg2)) (m ((c : Thread nD τ).loc main_arg3)) := by
  refine (final m c).trans ?_
  unfold Cert.EdgeInit.fromArguments
  exact Cert.EdgeInit.edgeInit_congr (V_main_arg0 m c) (found_node_rows m c) (found_edge_weight m c)
    (found_node_weight m c)

/-- The kernel's program, run from any memory with zero counters: every weakly fair execution terminates with the
    result array at `fromArguments` of the four arguments, and the arguments unchanged. -/
theorem run : θ_run defs (onTc (τ := τ) (main (F := Ideal))) ⟨m, fun _ => 0, ρ⟩ fun r => ∀ c : Dev nD,
      r.2.mem ((c : Thread nD τ).loc main_v3)
        = fromArguments (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_of_arguments m c), (h c).2⟩) (run_blocks m ρ)

end Cert.KernelIdeal.Whole

end
-- ==== Proof.ReferenceRun.lean ====
/-
  The reference program's run, read back.

  Its @main is a straight line of 28 host operations: the two slices of the weight (rows 0-63 and rows 64-191), the 23
  operations of the row lookup (the positions wrapped, written as a column, tested against the table's range, the
  rows gathered, the out-of-range rows filled), the two products and their sum. Listed in order (`ops`), the run of
  such a line ends with every buffer at the fold of the operations over the launch contents; read at the result
  buffer that fold is

      (E · slice₀ W) + (takeRows n src · slice₆₄ W),

  the two products `dot_general`s contracting axis 1 of the left against axis 0 of the right, and read at an argument
  buffer it is the argument as launched, since no operation writes an argument.
-/
import proofs.«119882_j19542101197172_1_alg».proof.Proof.Gen.ReferenceIdeal
import proofs.«119882_j19542101197172_1_alg».proof.Proof.HostTake
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the row lookup's listed where it is called. -/
abbrev ops : List (HloOp τ sig (Elt F)) :=
  [ StableHlo.unary main_arg3 main_v0 ((extractStridedSlice S64x128 ![0, 0] · slices_S192x128_S64x128_0_0) : (⟨S192x128, .f32⟩ : BufTy).Contents (Elt F) → (⟨S64x128, .f32⟩ : BufTy).Contents (Elt F)),
    StableHlo.unary main_arg3 main_v1 ((extractStridedSlice S128x128 ![64, 0] · slices_S192x128_S128x128_64_0) : (⟨S192x128, .f32⟩ : BufTy).Contents (Elt F) → (⟨S128x128, .f32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S640000, .i32⟩) (broadcastInDim S640000 ![] bcast_S_S640000),
    StableHlo.TRef.binary (.of main_arg2 : StableHlo.TRef sig ⟨S640000, .i32⟩) (.of main_call0_v0 : StableHlo.TRef sig ⟨S640000, .i32⟩) (.of main_call0_v1 : StableHlo.TRef sig ⟨S640000, .i1⟩) (cmpi .slt),
    StableHlo.TRef.nullary (.of main_call0_c_0 : StableHlo.TRef sig ⟨S_, .i32⟩) (constantI S_ 32 20000#32),
    StableHlo.TRef.unary (.of main_call0_c_0 : StableHlo.TRef sig ⟨S_, .i32⟩) (.of main_call0_v2 : StableHlo.TRef sig ⟨S640000, .i32⟩) (broadcastInDim S640000 ![] bcast_S_S640000),
    StableHlo.TRef.binary (.of main_arg2 : StableHlo.TRef sig ⟨S640000, .i32⟩) (.of main_call0_v2 : StableHlo.TRef sig ⟨S640000, .i32⟩) (.of main_call0_v3 : StableHlo.TRef sig ⟨S640000, .i32⟩) addi,
    StableHlo.TRef.ternary (.of main_call0_v1 : StableHlo.TRef sig ⟨S640000, .i1⟩) (.of main_call0_v3 : StableHlo.TRef sig ⟨S640000, .i32⟩) (.of main_arg2 : StableHlo.TRef sig ⟨S640000, .i32⟩) (.of main_call0_v4 : StableHlo.TRef sig ⟨S640000, .i32⟩) select,
    StableHlo.TRef.unary main_call0_call0.v0 (.of main_call0_v5 : StableHlo.TRef sig ⟨S640000x1, .i32⟩) (broadcastInDim S640000x1 ![0] bcast_S640000_S640000x1_0),
    StableHlo.TRef.nullary (.of main_call0_c_1 : StableHlo.TRef sig ⟨S1, .i32⟩) (constantI S1 32 19999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S640000x1, .i32⟩) (broadcastInDim S640000x1 ![] bcast_S_S640000x1),
    StableHlo.TRef.binary (.of main_call0_v5 : StableHlo.TRef sig ⟨S640000x1, .i32⟩) (.of main_call0_v6 : StableHlo.TRef sig ⟨S640000x1, .i32⟩) (.of main_call0_v7 : StableHlo.TRef sig ⟨S640000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S640000x1, .i32⟩) (broadcastInDim S640000x1 ![0, 1] bcast_S1x1_S640000x1_0_1),
    StableHlo.TRef.binary (.of main_call0_v5 : StableHlo.TRef sig ⟨S640000x1, .i32⟩) (.of main_call0_v9 : StableHlo.TRef sig ⟨S640000x1, .i32⟩) (.of main_call0_v10 : StableHlo.TRef sig ⟨S640000x1, .i1⟩) (cmpi .sle),
    StableHlo.TRef.binary (.of main_call0_v7 : StableHlo.TRef sig ⟨S640000x1, .i1⟩) (.of main_call0_v10 : StableHlo.TRef sig ⟨S640000x1, .i1⟩) (.of main_call0_v11 : StableHlo.TRef sig ⟨S640000x1, .i1⟩) andi,
    StableHlo.TRef.nullary (.of main_call0_c_3 : StableHlo.TRef sig ⟨S_, .i1⟩) (constantI S_ 1 1#1),
    StableHlo.TRef.binary (.of main_call0_v11 : StableHlo.TRef sig ⟨S640000x1, .i1⟩) (.of main_call0_c_3 : StableHlo.TRef sig ⟨S_, .i1⟩) (.of main_call0_v12 : StableHlo.TRef sig ⟨S640000, .i1⟩) (fun x v => Host.reduce IntOp.andi x v reducesTo_S640000x1_S640000_d1 h_S_),
    StableHlo.TRef.binary (.of main_arg1 : StableHlo.TRef sig ⟨S20000x128, .f32⟩) (.of main_call0_v5 : StableHlo.TRef sig ⟨S640000x1, .i32⟩) (.of main_call0_v13 : StableHlo.TRef sig ⟨S640000x128, .f32⟩) (fun x i => Host.gather gather_S20000x128_S640000x1_S640000x128_1_0_n_n_0_1_1128 x i),
    StableHlo.TRef.unary (.of main_call0_v12 : StableHlo.TRef sig ⟨S640000, .i1⟩) (.of main_call0_v14 : StableHlo.TRef sig ⟨S640000x128, .i1⟩) (broadcastInDim S640000x128 ![0] bcast_S640000_S640000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S640000x128, .f32⟩) (broadcastInDim S640000x128 ![] bcast_S_S640000x128),
    StableHlo.TRef.ternary (.of main_call0_v14 : StableHlo.TRef sig ⟨S640000x128, .i1⟩) (.of main_call0_v13 : StableHlo.TRef sig ⟨S640000x128, .f32⟩) (.of main_call0_v15 : StableHlo.TRef sig ⟨S640000x128, .f32⟩) (.of main_v2 : StableHlo.TRef sig ⟨S640000x128, .f32⟩) select,
    StableHlo.binary main_arg0 main_v0 main_v3 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    StableHlo.binary main_v2 main_v1 main_v4 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.binary main_v3 main_v4 main_v5 (addf : (⟨S640000x128, .f32⟩ : BufTy).Contents (Elt F) → (⟨S640000x128, .f32⟩ : BufTy).Contents (Elt F) → (⟨S640000x128, .f32⟩ : BufTy).Contents (Elt F)) ]

set_option maxRecDepth 1024 in
/-- @main is that straight line: the lookup's definition unfolded at its call, both sides are one chain of
    operations once the sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., binary_bufs_sub ..⟩

/-- From any memory with zero counters every weakly fair execution of @main terminates, and every final state has
    each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.ReferenceValue.lean ====
/-
  The reference program's result is `edgeInit`.

  Its last three operations are two `dot_general`s — the edge features against rows 0-63 of the weight, the looked-up
  node rows against rows 64-191 — and their sum. Over the extended reals a `dot_general` contracting axis 1 of the
  left against axis 0 of the right is, at entry (e, h), the sum along row `e` of the left and column `h` of the right
  of the products; the two such sums added are `edgeInit`'s entry by definition. The fold of the 28 operations at the
  result buffer is that term of the four arguments, by reading each operation's result in turn.
-/
import proofs.«119882_j19542101197172_1_alg».proof.Proof.ReferenceRun
import proofs.«119882_j19542101197172_1_alg».proof.Proof.EdgeInit
import proofs.«119882_j19542101197172_1_alg».proof.Proof.LibPlainDot
import proofs.«119882_j19542101197172_1_alg».proof.Proof.LibTypedRef

open scoped BigOperators

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx
open Cert.EdgeInit (edgeInit entry takeRows weightTop weightBottom fromArguments)

/-- The edge-feature product at entry (e, h): row `e` of the features against column `h` of the weight half. -/
theorem edge_dot_at (E : FVec Ideal S640000x64 .f32) (We : FVec Ideal S64x128 .f32) (e : Fin 640000) (h : Fin 128) :
    Host.dotGeneral (F := Ideal) dot_S640000x64_S64x128_S640000x128_1_0_0_1_n_n none E We (ix2 e h)
      = ∑ k : Fin 64, E (ix2 e k) * We (ix2 k h) := by
  refine (Ideal.dotGeneral_apply _ none _ E We (ix2 e h)).trans ?_
  exact Cert.PlainDot.sum_eq dot_S640000x64_S64x128_S640000x128_1_0_0_1_n_n rfl rfl rfl rfl rfl rfl rfl rfl E We e h

/-- The source-node product at entry (e, h): row `e` of the looked-up rows against column `h` of the weight half. -/
theorem node_dot_at (S : FVec Ideal S640000x128 .f32) (Wn : FVec Ideal S128x128 .f32) (e : Fin 640000) (h : Fin 128) :
    Host.dotGeneral (F := Ideal) dot_S640000x128_S128x128_S640000x128_1_0_0_1_n_n none S Wn (ix2 e h)
      = ∑ k : Fin 128, S (ix2 e k) * Wn (ix2 k h) := by
  refine (Ideal.dotGeneral_apply _ none _ S Wn (ix2 e h)).trans ?_
  exact Cert.PlainDot.sum_eq dot_S640000x128_S128x128_S640000x128_1_0_0_1_n_n rfl rfl rfl rfl rfl rfl rfl rfl S Wn e h

/-- The two products added are `edgeInit`. -/
theorem sum_of_dots (E : FVec Ideal S640000x64 .f32) (S : FVec Ideal S640000x128 .f32) (We : FVec Ideal S64x128 .f32)
    (Wn : FVec Ideal S128x128 .f32) :
    addf (Host.dotGeneral (F := Ideal) dot_S640000x64_S64x128_S640000x128_1_0_0_1_n_n none E We)
        (Host.dotGeneral (F := Ideal) dot_S640000x128_S128x128_S640000x128_1_0_0_1_n_n none S Wn)
      = edgeInit E S We Wn := by
  funext i
  obtain ⟨e, h, rfl⟩ : ∃ (e : Fin 640000) (h : Fin 128), i = ix2 e h := ⟨i 0, i 1, eq_ix2 i⟩
  exact congrArg₂ (· + ·) (edge_dot_at E We e h) (node_dot_at S Wn e h)

/-- At the node table's buffer, the positions' buffer and the lookup's result buffer, contents at the value's type are
    contents at the buffer's type. -/
theorem node_table_cast (u : (main_arg1 : Ref sig .tc).ty.Contents (Elt Ideal)) :
    (TRef.of main_arg1 : TRef sig ⟨S20000x128, .f32⟩).ofBuf u = u := rfl
theorem positions_cast (u : (main_arg2 : Ref sig .tc).ty.Contents (Elt Ideal)) :
    (TRef.of main_arg2 : TRef sig ⟨S640000, .i32⟩).ofBuf u = u := rfl
theorem node_rows_cast (u : FVec Ideal S640000x128 .f32) :
    (TRef.of main_v2 : TRef sig ⟨S640000x128, .f32⟩).toBuf (Val := Elt Ideal) u = u := rfl

set_option maxHeartbeats 400000 in
/-- The fold of @main's operations, read at the result buffer: the two products of the arguments' terms, added. -/
theorem result_fold (V : Valuation τ sig (Elt Ideal)) :
    after ops V (main_v5 : DevRef τ sig)
      = addf (Host.dotGeneral (F := Ideal) (φ₁ := .f32) (φ₂ := .f32) dot_S640000x64_S64x128_S640000x128_1_0_0_1_n_n none
            (V (main_arg0 : DevRef τ sig)) (weightTop (F := Ideal) (V (main_arg3 : DevRef τ sig))))
          (Host.dotGeneral (F := Ideal) (φ₁ := .f32) (φ₂ := .f32) dot_S640000x128_S128x128_S640000x128_1_0_0_1_n_n none
            (takeRows (F := Ideal) (V (main_arg1 : DevRef τ sig)) (V (main_arg2 : DevRef τ sig)))
            (weightBottom (F := Ideal) (V (main_arg3 : DevRef τ sig)))) := by
  after_results_simp
  simp only [Cert.TypedRef.ofBuf_toBuf, node_table_cast, positions_cast, node_rows_cast]
  rw [Cert.EdgeInit.takeRows_spelt (F := Ideal) gather_S20000x128_S640000x1_S640000x128_1_0_n_n_0_1_1128 rfl
    bcast_S_S640000 bcast_S640000_S640000x1_0 bcast_S_S640000x1 bcast_S1x1_S640000x1_0_1 bcast_S1_S1x1_1
    reducesTo_S640000x1_S640000_d1 h_S_ bcast_S640000_S640000x128_0 bcast_S_S640000x128
    (V (main_arg1 : DevRef τ sig)) (V (main_arg2 : DevRef τ sig))]
  rfl

/-- No operation writes an argument: each is found as launched. -/
theorem arg0_fold (V : Valuation τ sig (Elt Ideal)) : after ops V (main_arg0 : DevRef τ sig) = V (main_arg0 : DevRef τ sig) := by
  after_results
theorem arg1_fold (V : Valuation τ sig (Elt Ideal)) : after ops V (main_arg1 : DevRef τ sig) = V (main_arg1 : DevRef τ sig) := by
  after_results
theorem arg2_fold (V : Valuation τ sig (Elt Ideal)) : after ops V (main_arg2 : DevRef τ sig) = V (main_arg2 : DevRef τ sig) := by
  after_results
theorem arg3_fold (V : Valuation τ sig (Elt Ideal)) : after ops V (main_arg3 : DevRef τ sig) = V (main_arg3 : DevRef τ sig) := by
  after_results

/-- The reference, run from any memory with zero counters: every weakly fair execution terminates with the result at
    `fromArguments` of the four arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = fromArguments (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v5).trans ((result_fold (launchContents m c)).trans (sum_of_dots _ _ _ _)),
        (h c main_arg0).trans (arg0_fold (launchContents m c)),
        (h c main_arg1).trans (arg1_fold (launchContents m c)),
        (h c main_arg2).trans (arg2_fold (launchContents m c)),
        (h c main_arg3).trans (arg3_fold (launchContents m c))⟩)
    (run_fold m ρ)

end Cert.ReferenceIdeal.HostRun

end
-- ==== Proof.lean ====
/-
  Edge-feature initialisation of a message-passing layer: for every edge, its own features and the features of its
  source node, each multiplied by its half of one weight matrix, the two products added.

  With `E` [640000, 64] the edge features, `n` [20000, 128] the node table, `src` the 640000 source positions and `W`
  [192, 128] the weight, both programs first take, on the host, rows 0-63 and rows 64-191 of `W` (`We`, `Wn`) and the
  rows `S = takeRows n src` of the node table at the positions. The reference then computes `E · We + S · Wn` as two
  whole-array products and a sum. The kernel computes the same 8000 rows at a time: each of its 80 grid points
  multiplies its 8000 rows of `E` by `We` and its 8000 rows of `S` by `Wn`, after narrowing every operand to bf16, and
  adds the products.

  Over the extended reals a change of float format is the identity and a product into a zero accumulator is the bare
  sum over the contraction, so at entry (e, h) both programs hold

      (∑ k < 64, E (e, k) · We (k, h)) + (∑ k < 128, S (e, k) · Wn (k, h)),

  the same sums of the same terms added the same way round: no law of the extended reals beyond reading each
  operation is used, and the precondition (finite inputs) is never opened. The row lookup is the same function of the
  same arguments on both sides and is carried by name.

  The modules: `EdgeInit` states that function; `HostTake` names the two weight halves and the row lookup, and shows
  the lookup's chain of elementary operations is the lookup; `LibPlainDot` reads a rows-by-columns contraction as a
  plain sum; `LibTypedRef` says that moving contents to a buffer's own type and back is the identity; `KernelBlock`
  reads one grid point's stored block at an entry; `KernelHost` reads the three arrays the kernel's program writes on
  the host before its launch; `KernelArray` goes from the blocks to the kernel's whole result array and its run;
  `ReferenceRun` lists the reference's operations and runs them; `ReferenceValue` reads the reference's result as the
  same function. Here the five claims are assembled: the
  two kernel programs' frames are their generated frame certificates, the reference's frame is its run with the
  result dropped, the idealization rewrote nothing, and the two idealized programs end at one array.
-/
import proofs.«119882_j19542101197172_1_alg».proof.Defs
import proofs.«119882_j19542101197172_1_alg».proof.Proof.Gen.Kernel
import proofs.«119882_j19542101197172_1_alg».proof.Proof.Gen.Kernel.Skeleton
import proofs.«119882_j19542101197172_1_alg».proof.Proof.Gen.Kernel.Launch
import proofs.«119882_j19542101197172_1_alg».proof.Proof.Gen.Kernel.Points
import proofs.«119882_j19542101197172_1_alg».proof.Proof.Gen.Kernel.Frame
import proofs.«119882_j19542101197172_1_alg».proof.Proof.Gen.KernelIdeal
import proofs.«119882_j19542101197172_1_alg».proof.Proof.Gen.KernelIdeal.Skeleton
import proofs.«119882_j19542101197172_1_alg».proof.Proof.Gen.KernelIdeal.Launch
import proofs.«119882_j19542101197172_1_alg».proof.Proof.Gen.KernelIdeal.Points
import proofs.«119882_j19542101197172_1_alg».proof.Proof.Gen.KernelIdeal.Frame
import proofs.«119882_j19542101197172_1_alg».proof.Proof.Gen.KernelIdeal.Value
import proofs.«119882_j19542101197172_1_alg».proof.Proof.Gen.ReferenceIdeal
import proofs.«119882_j19542101197172_1_alg».proof.Proof.Gen.Pre_finite_inputs
import proofs.«119882_j19542101197172_1_alg».proof.Proof.KernelArray
import proofs.«119882_j19542101197172_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel's program as printed: it runs and leaves its arguments as they were. -/
theorem frame_kernel : Cert.frame_Kernel := fun m ρ _ => Cert.Kernel.Gen.frame m ρ

/-- The same program read over the extended reals. -/
theorem frame_kernel_ideal : Cert.frame_KernelIdeal := fun m ρ _ => Cert.KernelIdeal.Gen.frame m ρ

/-- The reference: its run, with what it says of the result dropped. -/
theorem frame_reference : Cert.frame_ReferenceIdeal := fun m ρ _ =>
  (θ_run Cert.ReferenceIdeal.defs _ _).mono (fun _ h c => (h c).2) (Cert.ReferenceIdeal.HostRun.run m ρ)

/-- Reading the kernel's program over the extended reals rewrote no operation. -/
theorem preserves : Cert.preserves_Kernel_KernelIdeal := trivial

/-- From memories that agree on the four arguments the two programs end with one result array: `edgeInit` of the
    edge features, the looked-up node rows and the two slices of the weight. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
